-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1600 : Shape := ⟨3, ![64, 1024, 1600]⟩
abbrev S100x4x1600 : Shape := ⟨3, ![100, 4, 1600]⟩
abbrev S2x100 : Shape := ⟨2, ![2, 100]⟩
abbrev S_ : Shape := ⟨0, ![]⟩

class Facts : Prop where
  bcast_S_S64x1024x1600 : S_.BroadcastsInDim S64x1024x1600 (![] : Fin 0 → Fin S64x1024x1600.rank)
  reducesTo_S64x1024x1600_S_d0_1_2 : S64x1024x1600.ReducesTo [0, 1, 2] S_
  h_S_ : 0 < S_.numel
  bcast_S_S100x4x1600 : S_.BroadcastsInDim S100x4x1600 (![] : Fin 0 → Fin S100x4x1600.rank)
  reducesTo_S100x4x1600_S_d0_1_2 : S100x4x1600.ReducesTo [0, 1, 2] S_
  bcast_S_S2x100 : S_.BroadcastsInDim S2x100 (![] : Fin 0 → Fin S2x100.rank)
  reducesTo_S2x100_S_d0_1 : S2x100.ReducesTo [0, 1] S_

variable [Facts]

def fn {F : FTy → Type} [FloatOps F] (main_arg0 : FVec F S64x1024x1600 .f32) (main_arg1 : FVec F S100x4x1600 .f32) (main_arg2 : FVec F S2x100 .f32) : IVec S_ 1 :=
  let main_v0 : FVec F S64x1024x1600 .f32 := Host.absf main_arg0
  let main_cst : FVec F S_ .f32 := constant S_ .f32 0x7F800000#32
  let main_v1 : FVec F S64x1024x1600 .f32 := broadcastInDim S64x1024x1600 ![] bcast_S_S64x1024x1600 main_cst
  let main_v2 : IVec S64x1024x1600 1 := cmpf .olt main_v0 main_v1
  let main_c : IVec S_ 1 := constantI S_ 1 1#1
  let main_v3 : IVec S_ 1 := (fun x v => Host.reduce IntOp.andi x v reducesTo_S64x1024x1600_S_d0_1_2 h_S_) main_v2 main_c
  let main_v4 : FVec F S100x4x1600 .f32 := Host.absf main_arg1
  let main_cst_0 : FVec F S_ .f32 := constant S_ .f32 0x7F800000#32
  let main_v5 : FVec F S100x4x1600 .f32 := broadcastInDim S100x4x1600 ![] bcast_S_S100x4x1600 main_cst_0
  let main_v6 : IVec S100x4x1600 1 := cmpf .olt main_v4 main_v5
  let main_c_1 : IVec S_ 1 := constantI S_ 1 1#1
  let main_v7 : IVec S_ 1 := (fun x v => Host.reduce IntOp.andi x v reducesTo_S100x4x1600_S_d0_1_2 h_S_) main_v6 main_c_1
  let main_v8 : IVec S_ 1 := andi main_v3 main_v7
  let main_v9 : FVec F S2x100 .f32 := Host.absf main_arg2
  let main_cst_2 : FVec F S_ .f32 := constant S_ .f32 0x7F800000#32
  let main_v10 : FVec F S2x100 .f32 := broadcastInDim S2x100 ![] bcast_S_S2x100 main_cst_2
  let main_v11 : IVec S2x100 1 := cmpf .olt main_v9 main_v10
  let main_c_3 : IVec S_ 1 := constantI S_ 1 1#1
  let main_v12 : IVec S_ 1 := (fun x v => Host.reduce IntOp.andi x v reducesTo_S2x100_S_d0_1 h_S_) main_v11 main_c_3
  let main_v13 : IVec S_ 1 := andi main_v8 main_v12
  main_v13
-- ==== Kernel.lean ====
abbrev S64x1024x1600 : Shape := ⟨3, ![64, 1024, 1600]⟩
abbrev S100x4x1600 : Shape := ⟨3, ![100, 4, 1600]⟩
abbrev S2x100 : Shape := ⟨2, ![2, 100]⟩
abbrev S400x1600 : Shape := ⟨2, ![400, 1600]⟩
abbrev S_ : Shape := ⟨0, ![]⟩
abbrev S400 : Shape := ⟨1, ![400]⟩
abbrev S400x1 : Shape := ⟨2, ![400, 1]⟩
abbrev S64x400x1024 : Shape := ⟨3, ![64, 400, 1024]⟩
abbrev S64x1x100 : Shape := ⟨3, ![64, 1, 100]⟩
abbrev S1x1024x1600 : Shape := ⟨3, ![1, 1024, 1600]⟩
abbrev S1x400x1024 : Shape := ⟨3, ![1, 400, 1024]⟩
abbrev S1x1x100 : Shape := ⟨3, ![1, 1, 100]⟩
abbrev S1024x1600 : Shape := ⟨2, ![1024, 1600]⟩
abbrev S1024 : Shape := ⟨1, ![1024]⟩
abbrev S1x1024 : Shape := ⟨2, ![1, 1024]⟩
abbrev S400x1024 : Shape := ⟨2, ![400, 1024]⟩
abbrev S100x4 : Shape := ⟨2, ![100, 4]⟩
abbrev S100 : Shape := ⟨1, ![100]⟩
abbrev S1x100 : Shape := ⟨2, ![1, 100]⟩
abbrev S64x100x4x1024 : Shape := ⟨4, ![64, 100, 4, 1024]⟩
abbrev S64x100x1024x4 : Shape := ⟨4, ![64, 100, 1024, 4]⟩
abbrev S64x100 : Shape := ⟨2, ![64, 100]⟩
abbrev S100x2 : Shape := ⟨2, ![100, 2]⟩
abbrev S64x2 : Shape := ⟨2, ![64, 2]⟩

abbrev nBuf : Space → Nat
  | .hbm => 16
  | .vmem => 8
  | .smem => 0
  | _ => 0

abbrev bufTy : (tb : Table) → Fin (tcTables nBuf tb) → BufTy
  | .hbm, ⟨0, _⟩ => ⟨S64x1024x1600, .f32⟩
  | .hbm, ⟨1, _⟩ => ⟨S100x4x1600, .f32⟩
  | .hbm, ⟨2, _⟩ => ⟨S2x100, .f32⟩
  | .hbm, ⟨3, _⟩ => ⟨S400x1600, .f32⟩
  | .hbm, ⟨4, _⟩ => ⟨S400x1600, .bf16⟩
  | .hbm, ⟨5, _⟩ => ⟨S400x1600, .f32⟩
  | .hbm, ⟨6, _⟩ => ⟨S_, .f32⟩
  | .hbm, ⟨7, _⟩ => ⟨S400, .f32⟩
  | .hbm, ⟨8, _⟩ => ⟨S400x1, .f32⟩
  | .hbm, ⟨9, _⟩ => ⟨S64x400x1024, .f32⟩
  | .hbm, ⟨10, _⟩ => ⟨S64x1x100, .f32⟩
  | .hbm, ⟨11, _⟩ => ⟨S64x100x4x1024, .f32⟩
  | .hbm, ⟨12, _⟩ => ⟨S64x100x1024x4, .f32⟩
  | .hbm, ⟨13, _⟩ => ⟨S64x100, .f32⟩
  | .hbm, ⟨14, _⟩ => ⟨S100x2, .f32⟩
  | .hbm, ⟨15, _⟩ => ⟨S64x2, .f32⟩
  | .local _ .vmem, ⟨0, _⟩ => ⟨S1x1024x1600, .f32⟩
  | .local _ .vmem, ⟨1, _⟩ => ⟨S1x1024x1600, .f32⟩
  | .local _ .vmem, ⟨2, _⟩ => ⟨S400x1600, .bf16⟩
  | .local _ .vmem, ⟨3, _⟩ => ⟨S400x1, .f32⟩
  | .local _ .vmem, ⟨4, _⟩ => ⟨S1x400x1024, .f32⟩
  | .local _ .vmem, ⟨5, _⟩ => ⟨S1x400x1024, .f32⟩
  | .local _ .vmem, ⟨6, _⟩ => ⟨S1x1x100, .f32⟩
  | .local _ .vmem, ⟨7, _⟩ => ⟨S1x1x100, .f32⟩
  | _, _ => ⟨S64x1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x1600 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100x4x1600_S400x1600 : S100x4x1600.ShapeCasts S400x1600
  bitsLt_bf16_f32 : FTy.bits .bf16 < FTy.bits .f32
  reducesTo_S400x1600_S400_d1 : S400x1600.ReducesTo [1] S400
  h_S_ : 0 < S_.numel
  bcast_S400_S400x1_0 : S400.BroadcastsInDim S400x1 (![0] : Fin 1 → Fin S400x1.rank)
  inb_S1x1024x1600_S1x1024x1600_0_0_0 : ∀ a, (![0, 0, 0] : Fin 3 → Nat) a + S1x1024x1600.size a ≤ S1x1024x1600.size a
  h_S1x1024x1600 : 0 < S1x1024x1600.numel
  shapeCasts_S1x1024x1600_S1024x1600 : S1x1024x1600.ShapeCasts S1024x1600
  inb_S400x1600_S400x1600_0_0 : ∀ a, (![0, 0] : Fin 2 → Nat) a + S400x1600.size a ≤ S400x1600.size a
  h_S400x1600 : 0 < S400x1600.numel
  shapeCasts_S400x1600_S400x1600 : S400x1600.ShapeCasts S400x1600
  inb_S400x1_S400x1_0_0 : ∀ a, (![0, 0] : Fin 2 → Nat) a + S400x1.size a ≤ S400x1.size a
  h_S400x1 : 0 < S400x1.numel
  shapeCasts_S400x1_S400x1 : S400x1.ShapeCasts S400x1
  reduces_S1024x1600_S1024 : S1024x1600.Reduces [1] S1024
  shapeCasts_S1024_S1x1024 : S1024.ShapeCasts S1x1024
  broadcasts_S400x1_S400x1024 : S400x1.Broadcasts S400x1024
  broadcasts_S1x1024_S400x1024 : S1x1024.Broadcasts S400x1024
  inb_S1x400x1024_S1x400x1024_0_0_0 : ∀ a, (![0, 0, 0] : Fin 3 → Nat) a + S1x400x1024.size a ≤ S1x400x1024.size a
  h_S1x400x1024 : 0 < S1x400x1024.numel
  shapeCasts_S1x400x1024_S400x1024 : S1x400x1024.ShapeCasts S400x1024
  shapeCasts_S400x1024_S1x400x1024 : S400x1024.ShapeCasts S1x400x1024
  reduces_S400x1024_S400 : S400x1024.Reduces [1] S400
  shapeCasts_S400_S100x4 : S400.ShapeCasts S100x4
  reduces_S100x4_S100 : S100x4.Reduces [1] S100
  shapeCasts_S100_S1x100 : S100.ShapeCasts S1x100
  inb_S1x1x100_S1x1x100_0_0_0 : ∀ a, (![0, 0, 0] : Fin 3 → Nat) a + S1x1x100.size a ≤ S1x1x100.size a
  h_S1x1x100 : 0 < S1x1x100.numel
  shapeCasts_S1x1x100_S1x100 : S1x1x100.ShapeCasts S1x100
  shapeCasts_S1x100_S1x1x100 : S1x100.ShapeCasts S1x1x100
  shapeCasts_S64x400x1024_S64x100x4x1024 : S64x400x1024.ShapeCasts S64x100x4x1024
  transposes_S64x100x4x1024_S64x100x1024x4_0_1_3_2 : S64x100x4x1024.Transposes [0, 1, 3, 2] S64x100x1024x4
  shapeCasts_S64x1x100_S64x100 : S64x1x100.ShapeCasts S64x100
  transposes_S2x100_S100x2_1_0 : S2x100.Transposes [1, 0] S100x2
  dot_S400x1600_S1024x1600_S400x1024_1_1_0_0_n_n_wf : DotDims.WF S400x1600 S1024x1600 S400x1024 [1] [1] [0] [0] [] []
  dot_S64x100_S100x2_S64x2_1_0_0_1_n_n_wf : DotDims.WF S64x100 S100x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1600.size a ≤ S64x1024x1600.size a
  hwx0_0 : ∀ i : grid0.Coords, EltTy.bits .f32 = 32 ∨ (Rect.block (s := S64x1024x1600) S1x1024x1600.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x1600.size a ≤ S400x1600.size a
  hwx0_1 : ∀ i : grid0.Coords, EltTy.bits .bf16 = 32 ∨ (Rect.block (s := S400x1600) S400x1600.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S400x1.size a
  hwx0_2 : ∀ i : grid0.Coords, EltTy.bits .f32 = 32 ∨ (Rect.block (s := S400x1) S400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x400x1024.size a ≤ S64x400x1024.size a
  hwx0_3 : ∀ i : grid0.Coords, EltTy.bits .f32 = 32 ∨ (Rect.block (s := S64x400x1024) S1x400x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x100.size a ≤ S64x1x100.size a
  hwx0_4 : ∀ i : grid0.Coords, EltTy.bits .f32 = 32 ∨ (Rect.block (s := S64x1x100) S1x1x100.size (cc0_transform_4 i) (hinb0_4 i)).WholeWords (EltTy.packing .f32)

variable [Facts₀]

def dot_S400x1600_S1024x1600_S400x1024_1_1_0_0_n_n : DotDims S400x1600 S1024x1600 S400x1024 where
  lhsContracting := [1]
  rhsContracting := [1]
  lhsNonContracting := [0]
  rhsNonContracting := [0]
  lhsBatch := []
  rhsBatch := []
  wf := dot_S400x1600_S1024x1600_S400x1024_1_1_0_0_n_n_wf
def dot_S64x100_S100x2_S64x2_1_0_0_1_n_n : DotDims S64x100 S100x2 S64x2 where
  lhsContracting := [1]
  rhsContracting := [0]
  lhsNonContracting := [0]
  rhsNonContracting := [1]
  lhsBatch := []
  rhsBatch := []
  wf := dot_S64x100_S100x2_S64x2_1_0_0_1_n_n_wf

abbrev win0_0 : Pipeline.Window sig grid0 :=
  Pipeline.Window.ofSpec (Memref.whole main_arg0) S1x1024x1600.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x1600.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S400x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x400x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x1x100.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x1600 : Shape := ⟨3, ![64, 1024, 1600]⟩
abbrev S100x4x1600 : Shape := ⟨3, ![100, 4, 1600]⟩
abbrev S2x100 : Shape := ⟨2, ![2, 100]⟩
abbrev S_ : Shape := ⟨0, ![]⟩
abbrev S64x1024 : Shape := ⟨2, ![64, 1024]⟩
abbrev S100x4 : Shape := ⟨2, ![100, 4]⟩
abbrev S100x4x64x1024 : Shape := ⟨4, ![100, 4, 64, 1024]⟩
abbrev S64x100x1024x4 : Shape := ⟨4, ![64, 100, 1024, 4]⟩
abbrev S64x1x1024x1 : Shape := ⟨4, ![64, 1, 1024, 1]⟩
abbrev S1x100x1x4 : Shape := ⟨4, ![1, 100, 1, 4]⟩
abbrev S64x100x4 : Shape := ⟨3, ![64, 100, 4]⟩
abbrev S64x100 : Shape := ⟨2, ![64, 100]⟩
abbrev S100x2 : Shape := ⟨2, ![100, 2]⟩
abbrev S64x2 : Shape := ⟨2, ![64, 2]⟩

abbrev nBuf : Space → Nat
  | .hbm => 31
  | .vmem => 0
  | .smem => 0
  | _ => 0

abbrev bufTy : (tb : Table) → Fin (tcTables nBuf tb) → BufTy
  | .hbm, ⟨0, _⟩ => ⟨S64x1024x1600, .f32⟩
  | .hbm, ⟨1, _⟩ => ⟨S100x4x1600, .f32⟩
  | .hbm, ⟨2, _⟩ => ⟨S2x100, .f32⟩
  | .hbm, ⟨3, _⟩ => ⟨S64x1024x1600, .f32⟩
  | .hbm, ⟨4, _⟩ => ⟨S_, .f32⟩
  | .hbm, ⟨5, _⟩ => ⟨S64x1024, .f32⟩
  | .hbm, ⟨6, _⟩ => ⟨S100x4x1600, .f32⟩
  | .hbm, ⟨7, _⟩ => ⟨S_, .f32⟩
  | .hbm, ⟨8, _⟩ => ⟨S100x4, .f32⟩
  | .hbm, ⟨9, _⟩ => ⟨S100x4x64x1024, .f32⟩
  | .hbm, ⟨10, _⟩ => ⟨S64x100x1024x4, .f32⟩
  | .hbm, ⟨11, _⟩ => ⟨S64x1x1024x1, .f32⟩
  | .hbm, ⟨12, _⟩ => ⟨S1x100x1x4, .f32⟩
  | .hbm, ⟨13, _⟩ => ⟨S64x100x1024x4, .f32⟩
  | .hbm, ⟨14, _⟩ => ⟨S64x100x1024x4, .f32⟩
  | .hbm, ⟨15, _⟩ => ⟨S64x100x1024x4, .f32⟩
  | .hbm, ⟨16, _⟩ => ⟨S_, .f32⟩
  | .hbm, ⟨17, _⟩ => ⟨S64x100x1024x4, .f32⟩
  | .hbm, ⟨18, _⟩ => ⟨S64x100x1024x4, .f32⟩
  | .hbm, ⟨19, _⟩ => ⟨S64x100x1024x4, .f32⟩
  | .hbm, ⟨20, _⟩ => ⟨S_, .f32⟩
  | .hbm, ⟨21, _⟩ => ⟨S64x100x1024x4, .f32⟩
  | .hbm, ⟨22, _⟩ => ⟨S64x100x1024x4, .f32⟩
  | .hbm, ⟨23, _⟩ => ⟨S64x100x1024x4, .f32⟩
  | .hbm, ⟨24, _⟩ => ⟨S_, .f32⟩
  | .hbm, ⟨25, _⟩ => ⟨S64x100x4, .f32⟩
  | .hbm, ⟨26, _⟩ => ⟨S64x100x4, .f32⟩
  | .hbm, ⟨27, _⟩ => ⟨S_, .f32⟩
  | .hbm, ⟨28, _⟩ => ⟨S64x100, .f32⟩
  | .hbm, ⟨29, _⟩ => ⟨S100x2, .f32⟩
  | .hbm, ⟨30, _⟩ => ⟨S64x2, .f32⟩
  | _, _ => ⟨S64x1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S64x1024x1600_S64x1024_d2 : S64x1024x1600.ReducesTo [2] S64x1024
  h_S_ : 0 < S_.numel
  reducesTo_S100x4x1600_S100x4_d2 : S100x4x1600.ReducesTo [2] S100x4
  transposes_S100x4x64x1024_S64x100x1024x4_2_0_3_1 : S100x4x64x1024.Transposes [2, 0, 3, 1] S64x100x1024x4
  bcast_S64x1024_S64x1x1024x1_0_2 : S64x1024.BroadcastsInDim S64x1x1024x1 (![0, 2] : Fin 2 → Fin S64x1x1024x1.rank)
  bcast_S100x4_S1x100x1x4_1_3 : S100x4.BroadcastsInDim S1x100x1x4 (![1, 3] : Fin 2 → Fin S1x100x1x4.rank)
  bcast_S64x1x1024x1_S64x100x1024x4_0_1_2_3 : S64x1x1024x1.BroadcastsInDim S64x100x1024x4 (![0, 1, 2, 3] : Fin 4 → Fin S64x100x1024x4.rank)
  bcast_S1x100x1x4_S64x100x1024x4_0_1_2_3 : S1x100x1x4.BroadcastsInDim S64x100x1024x4 (![0, 1, 2, 3] : Fin 4 → Fin S64x100x1024x4.rank)
  bcast_S_S64x100x1024x4 : S_.BroadcastsInDim S64x100x1024x4 (![] : Fin 0 → Fin S64x100x1024x4.rank)
  reducesTo_S64x100x1024x4_S64x100x4_d2 : S64x100x1024x4.ReducesTo [2] S64x100x4
  reducesTo_S64x100x4_S64x100_d2 : S64x100x4.ReducesTo [2] S64x100
  transposes_S2x100_S100x2_1_0 : S2x100.Transposes [1, 0] S100x2
  dot_S100x4x1600_S64x1024x1600_S100x4x64x1024_2_2_01_01_n_n_wf : DotDims.WF S100x4x1600 S64x1024x1600 S100x4x64x1024 [2] [2] [0, 1] [0, 1] [] []
  dot_S64x100_S100x2_S64x2_1_0_0_1_n_n_wf : DotDims.WF S64x100 S100x2 S64x2 [1] [0] [0] [1] [] []

variable [Facts₀]

def dot_S100x4x1600_S64x1024x1600_S100x4x64x1024_2_2_01_01_n_n : DotDims S100x4x1600 S64x1024x1600 S100x4x64x1024 where
  lhsContracting := [2]
  rhsContracting := [2]
  lhsNonContracting := [0, 1]
  rhsNonContracting := [0, 1]
  lhsBatch := []
  rhsBatch := []
  wf := dot_S100x4x1600_S64x1024x1600_S100x4x64x1024_2_2_01_01_n_n_wf
def dot_S64x100_S100x2_S64x2_1_0_0_1_n_n : DotDims S64x100 S100x2 S64x2 where
  lhsContracting := [1]
  rhsContracting := [0]
  lhsNonContracting := [0]
  rhsNonContracting := [1]
  lhsBatch := []
  rhsBatch := []
  wf := dot_S64x100_S100x2_S64x2_1_0_0_1_n_n_wf

class Facts : Prop extends Facts₀ where

variable [Facts]
-- ==== Proof.Spec.lean ====
/-
  The distances between every embedding row and every prototype row, as functions of the argument arrays over the
  extended reals.

  For an embedding array E of shape [64, 1024, 1600] and a prototype array P of shape [100, 4, 1600]:
    sqE E b s        = Σ_e E(b,s,e)²                      the squared norm of embedding row (b, s)
    sqP P p k        = Σ_e P(p,k,e)²                      the squared norm of prototype row (p, k)
    dotPE E P b p s k = Σ_e P(p,k,e) · E(b,s,e)            their inner product
    dist E P b p s k = √ max ((sqE + sqP) − 2 · dotPE, 0)  the distance, by the expansion ‖x − p‖² = ‖x‖² + ‖p‖² − 2 x·p
    minDist E P b p k = min over s of dist                 (folded from +∞)
    protoDist E P b p = Σ_k minDist E P b p k
  A distance is a square root of a maximum with zero, so it is nonnegative; a minimum of nonnegative numbers from +∞ is
  nonnegative; and the absolute value max x (−x) of a nonnegative extended real is the number itself. Addition of extended
  reals commutes, so the two orders ‖p‖² + ‖x‖² and ‖x‖² + ‖p‖² give one distance.
-/
import Idealize.ShloMosaic.PureOps.Ideal
import Idealize.ShloMosaic.PureOps.Ideal.Laws
import Idealize.ShloMosaic.Lib.ValueIdx

noncomputable section

namespace Cert.ProtoDist

open Idealize.ShloMosaic Idealize.ShloMosaic.ValueIdx

/-- The distance from the two squared norms and the inner product: √ max ((x2 + p2) − 2 · xp, 0). The literals stay the
    words the programs carry (2.0 and 0.0). -/
def distOf (x2 p2 xp : EReal) : EReal :=
  Ideal.sqrt (max ((x2 + p2) - Ideal.ofBits .f32 0x40000000#32 * xp) (Ideal.ofBits .f32 0x00000000#32))

/-- With the two squared norms added in the other order: the same distance. -/
theorem distOf_swap (x2 p2 xp : EReal) :
    Ideal.sqrt (max ((p2 + x2) - Ideal.ofBits .f32 0x40000000#32 * xp) (Ideal.ofBits .f32 0x00000000#32)) = distOf x2 p2 xp := by
  rw [distOf, add_comm]

/-- The square root of a nonnegative extended real is nonnegative. -/
theorem sqrt_nonneg {x : EReal} (h : 0 ≤ x) : 0 ≤ Ideal.sqrt x := by
  induction x using EReal.rec with
  | bot => exact absurd h (by simp)
  | top => rw [Ideal.sqrt_top]; exact le_top
  | coe r =>
    have hr : 0 ≤ r := EReal.coe_nonneg.mp h
    rw [Ideal.sqrt_coe, if_neg (not_lt.mpr hr)]
    exact EReal.coe_nonneg.mpr (Real.sqrt_nonneg r)

/-- A distance is nonnegative. -/
theorem distOf_nonneg (x2 p2 xp : EReal) : 0 ≤ distOf x2 p2 xp := by
  unfold distOf
  refine sqrt_nonneg (le_max_of_le_right ?_)
  rw [Ideal.ofBits_zero_f32]

/-- The word 0x7F800000 denotes +∞. -/
theorem ofBits_pinf : Ideal.ofBits .f32 0x7F800000#32 = ⊤ := by simp [Ideal.ofBits, Ideal.ieee]

/-- The absolute value of a nonnegative extended real is itself. -/
theorem abs_of_nonneg {x : EReal} (h : 0 ≤ x) : max x (-x) = x :=
  max_eq_left (le_trans (by simpa using EReal.neg_le_neg_iff.mpr h) h)

/-- The minimum, from +∞, of finitely many nonnegative numbers is nonnegative. -/
theorem fold_min_nonneg {ι : Type} (s : Finset ι) (f : ι → EReal) (hf : ∀ i, 0 ≤ f i) :
    0 ≤ s.fold min (Ideal.ofBits .f32 0x7F800000#32) f := by
  rw [Finset.le_fold_min]
  exact ⟨by rw [ofBits_pinf]; exact le_top, fun i _ => hf i⟩

/-- Prototype row (p, k) is row 4·p + k of the prototypes laid out as 400 rows. -/
def pkOf (p : Fin 100) (k : Fin 4) : Fin 400 := ⟨p.val * 4 + k.val, by have := p.isLt; have := k.isLt; omega⟩

section Arrays

variable (E : (⟨3, ![64, 1024, 1600]⟩ : Shape).Idx → EReal) (P : (⟨3, ![100, 4, 1600]⟩ : Shape).Idx → EReal)

/-- The squared norm of embedding row (b, s). -/
def sqE (b : Fin 64) (s : Fin 1024) : EReal := ∑ e : Fin 1600, E (ix3 b s e) * E (ix3 b s e)
/-- The squared norm of prototype row (p, k). -/
def sqP (p : Fin 100) (k : Fin 4) : EReal := ∑ e : Fin 1600, P (ix3 p k e) * P (ix3 p k e)
/-- The inner product of prototype row (p, k) and embedding row (b, s). -/
def dotPE (b : Fin 64) (p : Fin 100) (s : Fin 1024) (k : Fin 4) : EReal := ∑ e : Fin 1600, P (ix3 p k e) * E (ix3 b s e)
/-- The distance between embedding row (b, s) and prototype row (p, k). -/
def dist (b : Fin 64) (p : Fin 100) (s : Fin 1024) (k : Fin 4) : EReal := distOf (sqE E b s) (sqP P p k) (dotPE E P b p s k)
/-- The least distance, over the sequence positions s, of batch b to prototype row (p, k). -/
def minDist (b : Fin 64) (p : Fin 100) (k : Fin 4) : EReal :=
  (Finset.univ : Finset (Fin 1024)).fold min (Ideal.ofBits .f32 0x7F800000#32) (fun s => dist E P b p s k)
/-- The sum over the prototype's rows k of the least distances. -/
def protoDist (b : Fin 64) (p : Fin 100) : EReal := ∑ k : Fin 4, minDist E P b p k

theorem dist_nonneg (b : Fin 64) (p : Fin 100) (s : Fin 1024) (k : Fin 4) : 0 ≤ dist E P b p s k := distOf_nonneg _ _ _

theorem minDist_nonneg (b : Fin 64) (p : Fin 100) (k : Fin 4) : 0 ≤ minDist E P b p k :=
  fold_min_nonneg _ _ fun s => dist_nonneg E P b p s k

/-- The array of all distances, [64, 100, 1024, 4]. -/
def distArr : (⟨4, ![64, 100, 1024, 4]⟩ : Shape).Idx → EReal := fun i => dist E P (i 0) (i 1) (i 2) (i 3)
/-- The array of summed least distances, [64, 100]. -/
def protoArr : (⟨2, ![64, 100]⟩ : Shape).Idx → EReal := fun i => protoDist E P (i 0) (i 1)

end Arrays

end Cert.ProtoDist

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«111610_j53102975648266_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«111610_j53102975648266_2_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.KernelPayload.lean ====
/-
  What one grid point's body computes from its three loaded blocks, index by index over the extended reals.

  The body loads an embedding block x0 [1, 1024, 1600], the prototype rows x1 [400, 1600] and their squared norms x2 [400, 1].
  Its first stored block, at (pk, s), is the distance made of the squared norm Σ_e x0(0,s,e)², the given squared norm
  x2(pk, 0) and the inner product Σ_e x1(pk,e) · x0(0,s,e): the lane sum is the plain sum over the row, the matrix product
  against the transposed right operand is the sum over the contracted axis, a change of float format is the identity, the
  column x2 is repeated along the rows and the row of squared norms down the columns. Its second stored block, at p, is the
  sum over k < 4 of the minimum over s (folded from +∞) of the first block's row 4·p + k: the 400 row minima are viewed as
  100 rows of 4 and summed along each.
-/
import proofs.«111610_j53102975648266_2_alg».proof.Proof.Gen.KernelIdeal.Skeleton
import proofs.«111610_j53102975648266_2_alg».proof.Proof.Spec
import proofs.«111610_j53102975648266_2_alg».proof.Proof.LibRowMin
import proofs.«111610_j53102975648266_2_alg».proof.Proof.LibDotT
import Idealize.ShloMosaic.Lib.ValueLayout
import Idealize.ShloMosaic.Lib.Pipeline.Value

noncomputable section

namespace Cert.ProtoDist.Payload

open Idealize.ShloMosaic Idealize.ShloMosaic.ValueIdx Cert.KernelIdeal Cert.KernelIdeal.Gen Cert.ProtoDist

/-- The square root of a vector, read at an index. -/
theorem sqrt_apply {s : Shape} {φ : FTy} (a : FVec Ideal s φ) (i : s.Idx) : sqrt a i = Ideal.sqrt (a i) := rfl

/-- The body's distances at (pk, s). -/
theorem pay1_apply (x0 : Vec Ideal S1x1024x1600 .f32) (x1 : Vec Ideal S400x1600 .bf16) (x2 : Vec Ideal S400x1 .f32)
    (pk : Fin 400) (s : Fin 1024) :
    k0_pay1 (F := Ideal) x0 x1 x2 (ix2 pk s)
      = distOf (∑ e : Fin 1600, x0 (ix3 (0 : Fin 1) s e) * x0 (ix3 (0 : Fin 1) s e)) (x2 (ix2 pk (0 : Fin 1)))
          (∑ e : Fin 1600, x1 (ix2 pk e) * x0 (ix3 (0 : Fin 1) s e)) := by
  unfold k0_pay1
  dsimp only
  have hd : dot_S400x1600_S1024x1600_S400x1024_1_1_0_0_n_n
      = Cert.LibDotT.dotT 400 1600 1024 Facts₀.dot_S400x1600_S1024x1600_S400x1024_1_1_0_0_n_n_wf := rfl
  rw [hd]
  simp only [sqrt_apply, maximumf_apply, subf_apply, addf_apply, mulf_apply, broadcast_apply, matmul]
  rw [Cert.LibColumn.broadcastTo_a1_ab_apply, broadcastTo_1b_ab_apply, shapeCast_a_1a_apply,
    Cert.LibRowMin.rowSum_f32, Cert.LibDotT.matmulT_zero_apply]
  simp only [mulf_apply, truncf_apply, shapeCast_self, shapeCast_1ab_ab_apply]
  exact distOf_swap _ _ _

/-- The first stored block is the distances under a leading unit axis. -/
theorem pay2_apply (x0 : Vec Ideal S1x1024x1600 .f32) (x1 : Vec Ideal S400x1600 .bf16) (x2 : Vec Ideal S400x1 .f32)
    (u : Fin 1) (pk : Fin 400) (s : Fin 1024) :
    k0_pay2 (F := Ideal) x0 x1 x2 (ix3 u pk s) = k0_pay1 (F := Ideal) x0 x1 x2 (ix2 pk s) := by
  unfold k0_pay2
  exact shapeCast_ab_1ab_apply _ _ u pk s

/-- The second stored block at p: the sum over k of the row minima of rows 4·p + k. -/
theorem pay3_apply (x0 : Vec Ideal S1x1024x1600 .f32) (x1 : Vec Ideal S400x1600 .bf16) (x2 : Vec Ideal S400x1 .f32)
    (u0 u1 : Fin 1) (p : Fin 100) :
    k0_pay3 (F := Ideal) x0 x1 x2 (ix3 u0 u1 p)
      = ∑ k : Fin 4, (Finset.univ : Finset (Fin 1024)).fold min (Ideal.ofBits .f32 0x7F800000#32)
          (fun s => k0_pay1 (F := Ideal) x0 x1 x2 (ix2 (pkOf p k) s)) := by
  unfold k0_pay3
  dsimp only
  rw [shapeCast_ab_1ab_apply, shapeCast_a_1a_apply, Cert.LibRowMin.rowSum_f32]
  refine Finset.sum_congr rfl fun k _ => ?_
  rw [Cert.LibRowMin.shapeCast_n_ab_apply _ _ p k (pkOf p k) rfl, Cert.LibRowMin.rowMin_f32]

end Cert.ProtoDist.Payload

end
-- ==== Proof.KernelArrays.lean ====
/-
  The two arrays the kernel writes, after all 64 grid points, as whole-array functions of the arrays the kernel reads.

  Point t reads embedding batch t (block t of the [64, 1024, 1600] array) and the whole prototype and squared-norm arrays, and
  writes block t of each output. So the first output [64, 400, 1024] at (b, pk, s) is the distance g3 between embedding row
  (b, s) and prototype row pk, and the second [64, 1, 100] at (b, 0, p) is the sum over k < 4 of the minimum over s of
  g3 b (4·p + k) s. Every index lies in the block of exactly the point t = b, so the blocks cover both arrays.
-/
import proofs.«111610_j53102975648266_2_alg».proof.Proof.Gen.KernelIdeal.Frame
import proofs.«111610_j53102975648266_2_alg».proof.Proof.KernelPayload
import Idealize.ShloMosaic.Lib.Pipeline.Value

set_option maxRecDepth 16384

noncomputable section

namespace Cert.ProtoDist.KArrays

open Idealize.ShloMosaic Idealize.ShloMosaic.TcCoe Idealize.SL.Sem
open Idealize.ShloMosaic.ValueIdx Cert.KernelIdeal Cert.KernelIdeal.Gen Cert.ProtoDist

section Functions

variable (A0 : S64x1024x1600.Idx → EReal) (A1 : S400x1600.Idx → EReal) (A2 : S400x1.Idx → EReal)

/-- The distance between embedding row (b, s) of A0 and row pk of A1, whose squared norm is A2(pk, 0). -/
def g3 (b : Fin 64) (pk : Fin 400) (s : Fin 1024) : EReal :=
  distOf (∑ e : Fin 1600, A0 (ix3 b s e) * A0 (ix3 b s e)) (A2 (ix2 pk (0 : Fin 1))) (∑ e : Fin 1600, A1 (ix2 pk e) * A0 (ix3 b s e))

/-- The sum over k < 4 of the least distance, over s, to row 4·p + k. -/
def g4 (b : Fin 64) (p : Fin 100) : EReal :=
  ∑ k : Fin 4, (Finset.univ : Finset (Fin 1024)).fold min (Ideal.ofBits .f32 0x7F800000#32) (fun s => g3 A0 A1 A2 b (pkOf p k) s)

/-- The first output array. -/
def G3 : S64x400x1024.Idx → EReal := fun i => g3 A0 A1 A2 (i 0) (i 1) (i 2)
/-- The second output array. -/
def G4 : S64x1x100.Idx → EReal := fun i => g4 A0 A1 A2 (i 0) (i 2)

theorem G3_apply (b : Fin 64) (pk : Fin 400) (s : Fin 1024) : G3 A0 A1 A2 (ix3 b pk s) = g3 A0 A1 A2 b pk s := rfl
theorem G4_apply (b : Fin 64) (u : Fin 1) (p : Fin 100) : G4 A0 A1 A2 (ix3 b u p) = g4 A0 A1 A2 b p := rfl

variable (x0 : Vec Ideal S1x1024x1600 .f32) (x1 : Vec Ideal S400x1600 .bf16) (x2 : Vec Ideal S400x1 .f32) (b : Fin 64)
  (h0 : ∀ (s : Fin 1024) (e : Fin 1600), x0 (ix3 (0 : Fin 1) s e) = A0 (ix3 b s e))
  (h1 : ∀ (pk : Fin 400) (e : Fin 1600), x1 (ix2 pk e) = A1 (ix2 pk e))
  (h2 : ∀ pk : Fin 400, x2 (ix2 pk (0 : Fin 1)) = A2 (ix2 pk (0 : Fin 1)))

include h0 h1 h2

/-- A point's distances, when its blocks are batch b of A0 and the whole of A1 and A2. -/
theorem pay1_block (pk : Fin 400) (s : Fin 1024) : k0_pay1 (F := Ideal) x0 x1 x2 (ix2 pk s) = g3 A0 A1 A2 b pk s := by
  rw [Payload.pay1_apply]
  unfold g3
  simp only [h0, h1, h2]

/-- The first stored block is block b of the first output array. -/
theorem block3 (j : S1x400x1024.Idx) (i : S64x400x1024.Idx) (hi0 : (i 0).val = b.val) (hi1 : (i 1).val = (j 1).val)
    (hi2 : (i 2).val = (j 2).val) : k0_pay2 (F := Ideal) x0 x1 x2 j = G3 A0 A1 A2 i := by
  obtain ⟨u, pk, s, rfl⟩ : ∃ (u : Fin 1) (pk : Fin 400) (s : Fin 1024), j = ix3 u pk s := ⟨j 0, j 1, j 2, eq_ix3 j⟩
  obtain ⟨b', pk', s', rfl⟩ : ∃ (b' : Fin 64) (pk' : Fin 400) (s' : Fin 1024), i = ix3 b' pk' s' := ⟨i 0, i 1, i 2, eq_ix3 i⟩
  have hb : b' = b := Fin.ext hi0
  have hpk : pk' = pk := Fin.ext hi1
  have hs : s' = s := Fin.ext hi2
  rw [hb, hpk, hs, G3_apply, Payload.pay2_apply]
  exact pay1_block A0 A1 A2 x0 x1 x2 b h0 h1 h2 pk s

/-- The second stored block is block b of the second output array. -/
theorem block4 (j : S1x1x100.Idx) (i : S64x1x100.Idx) (hi0 : (i 0).val = b.val) (hi2 : (i 2).val = (j 2).val) :
    k0_pay3 (F := Ideal) x0 x1 x2 j = G4 A0 A1 A2 i := by
  obtain ⟨u0, u1, p, rfl⟩ : ∃ (u0 u1 : Fin 1) (p : Fin 100), j = ix3 u0 u1 p := ⟨j 0, j 1, j 2, eq_ix3 j⟩
  obtain ⟨b', u, p', rfl⟩ : ∃ (b' : Fin 64) (u : Fin 1) (p' : Fin 100), i = ix3 b' u p' := ⟨i 0, i 1, i 2, eq_ix3 i⟩
  have hb : b' = b := Fin.ext hi0
  have hp : p' = p := Fin.ext hi2
  rw [hb, hp, G4_apply, Payload.pay3_apply]
  unfold g4
  refine Finset.sum_congr rfl fun k _ => ?_
  exact congrArg (fun f => (Finset.univ : Finset (Fin 1024)).fold min (Ideal.ofBits .f32 0x7F800000#32) f)
    (funext fun s => pay1_block A0 A1 A2 x0 x1 x2 b h0 h1 h2 (pkOf p k) s)

end Functions

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The block index maps over the grid: point t takes block t of the embeddings and of both outputs along the batch axis,
    and block 0 of everything else. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The input blocks at point t are batch t of the embeddings and the whole of the other two arrays. -/
theorem iblk0 (c : Dev nD) (t : Fin cfg0.N) (ht : t.val < 64) (s : Fin 1024) (e : Fin 1600) :
    iblk m c 0 t (ix3 (0 : Fin 1) s e) = V m c main_arg0 (ix3 (⟨t.val, ht⟩ : Fin 64) s e) := by
  obtain ⟨e0, e1, e2, -⟩ := idx_facts t
  show V m c main_arg0 (((cfg0.win 0).blk t).view.emb (ix3 (0 : Fin 1) s e)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 1600 + 1 * e.val = e.val; omega

theorem iblk1 (c : Dev nD) (t : Fin cfg0.N) (pk : Fin 400) (e : Fin 1600) :
    iblk m c 1 t (ix2 pk e) = V m c main_v1 (ix2 pk e) := by
  obtain ⟨-, -, -, e0, e1, -⟩ := idx_facts t
  show V m c main_v1 (((cfg0.win 1).blk t).view.emb (ix2 pk e)) = _
  refine congrArg (V m c main_v1) (funext fun a => Fin.ext ?_)
  match a with
  | ⟨0, _⟩ => show win0_1.index t (0 : Fin 2) * 400 + 1 * pk.val = pk.val; omega
  | ⟨1, _⟩ => show win0_1.index t (1 : Fin 2) * 1600 + 1 * e.val = e.val; omega

theorem iblk2 (c : Dev nD) (t : Fin cfg0.N) (pk : Fin 400) :
    iblk m c 2 t (ix2 pk (0 : Fin 1)) = V m c main_v4 (ix2 pk (0 : Fin 1)) := by
  obtain ⟨-, -, -, -, -, e0, e1, -⟩ := idx_facts t
  show V m c main_v4 (((cfg0.win 2).blk t).view.emb (ix2 pk (0 : Fin 1))) = _
  refine congrArg (V m c main_v4) (funext fun a => Fin.ext ?_)
  match a with
  | ⟨0, _⟩ => show win0_2.index t (0 : Fin 2) * 400 + 1 * pk.val = pk.val; omega
  | ⟨1, _⟩ => show win0_2.index t (1 : Fin 2) * 1 + 1 * 0 = 0; omega

/-- What point t writes back through window 3 is block t of the first output array. -/
theorem flushed3_eq (c : Dev nD) (t : Fin cfg0.N) :
    (dats m 0 c).flushed 3 t
      = ((cfg0.win 3).blk t).view.read (Elt Ideal) (G3 (V m c main_arg0) (V m c main_v1) (V m c main_v4)) := by
  show (cfg0.win 3).cut (grid0.coords t) ((dats m 0 c).after 3 t) = _
  rw [after0_3]
  unfold out0_3
  rw [View.canon_unit_zero hz3]
  simp only [View.ld_unit_zero (S := S1x1024x1600) hz3, View.ld_unit_zero (S := S400x1600) hz2, View.ld_unit_zero (S := S400x1) hz2]
  have ht : t.val < 64 := lt_of_lt_of_eq t.isLt (show cfg0.N = 64 from N_0)
  obtain ⟨-, -, -, -, -, -, -, e0, e1, e2, -⟩ := idx_facts t
  funext j
  show k0_pay2 (F := Ideal) (iblk m c 0 t) (iblk m c 1 t) (iblk m c 2 t) j
    = G3 (V m c main_arg0) (V m c main_v1) (V m c main_v4) (((cfg0.win 3).blk t).view.emb j)
  have hj0 : (j 0).val < 1 := (j 0).isLt
  exact block3 (V m c main_arg0) (V m c main_v1) (V m c main_v4) (iblk m c 0 t) (iblk m c 1 t) (iblk m c 2 t) ⟨t.val, ht⟩
    (iblk0 m c t ht) (iblk1 m c t) (iblk2 m c t) j (((cfg0.win 3).blk t).view.emb j)
    (show win0_3.index t (0 : Fin 3) * 1 + 1 * (j 0).val = t.val by omega)
    (show win0_3.index t (1 : Fin 3) * 400 + 1 * (j 1).val = (j 1).val by omega)
    (show win0_3.index t (2 : Fin 3) * 1024 + 1 * (j 2).val = (j 2).val by omega)

/-- What point t writes back through window 4 is block t of the second output array. -/
theorem flushed4_eq (c : Dev nD) (t : Fin cfg0.N) :
    (dats m 0 c).flushed 4 t
      = ((cfg0.win 4).blk t).view.read (Elt Ideal) (G4 (V m c main_arg0) (V m c main_v1) (V m c main_v4)) := by
  show (cfg0.win 4).cut (grid0.coords t) ((dats m 0 c).after 4 t) = _
  rw [after0_4]
  unfold out0_4
  rw [View.canon_unit_zero hz3]
  simp only [View.ld_unit_zero (S := S1x1024x1600) hz3, View.ld_unit_zero (S := S400x1600) hz2, View.ld_unit_zero (S := S400x1) hz2]
  have ht : t.val < 64 := lt_of_lt_of_eq t.isLt (show cfg0.N = 64 from N_0)
  obtain ⟨-, -, -, -, -, -, -, -, -, -, e0, e1, e2⟩ := idx_facts t
  funext j
  show k0_pay3 (F := Ideal) (iblk m c 0 t) (iblk m c 1 t) (iblk m c 2 t) j
    = G4 (V m c main_arg0) (V m c main_v1) (V m c main_v4) (((cfg0.win 4).blk t).view.emb j)
  have hj0 : (j 0).val < 1 := (j 0).isLt
  exact block4 (V m c main_arg0) (V m c main_v1) (V m c main_v4) (iblk m c 0 t) (iblk m c 1 t) (iblk m c 2 t) ⟨t.val, ht⟩
    (iblk0 m c t ht) (iblk1 m c t) (iblk2 m c t) j (((cfg0.win 4).blk t).view.emb j)
    (show win0_4.index t (0 : Fin 3) * 1 + 1 * (j 0).val = t.val by omega)
    (show win0_4.index t (2 : Fin 3) * 100 + 1 * (j 2).val = (j 2).val by omega)

/-- An index of the first output array is in point t's block iff each coordinate is in the block's range on its axis. -/
theorem mem_blk3 (t : Fin cfg0.N) (i : S64x400x1024.Idx) :
    i ∈ ((cfg0.win 3).blk t).view.set ↔ ∀ a : Fin 3, win0_3.index t a * S1x400x1024.size a ≤ (i a).val ∧ (i a).val < win0_3.index t a * S1x400x1024.size a + S1x400x1024.size a := by
  show i ∈ ((View.whole main_v5_0).slice (win0_3.rect t)).set ↔ _
  rw [View.set_slice_whole, Rect.mem_set_unit]
  exact Iff.rfl

theorem mem_blk4 (t : Fin cfg0.N) (i : S64x1x100.Idx) :
    i ∈ ((cfg0.win 4).blk t).view.set ↔ ∀ a : Fin 3, win0_4.index t a * S1x1x100.size a ≤ (i a).val ∧ (i a).val < win0_4.index t a * S1x1x100.size a + S1x1x100.size a := by
  show i ∈ ((View.whole main_v5_1).slice (win0_4.rect t)).set ↔ _
  rw [View.set_slice_whole, Rect.mem_set_unit]
  exact Iff.rfl

/-- Every index of the first output array is in the block of the point its batch coordinate names. -/
theorem cover3 (i : S64x400x1024.Idx) : ∃ t : Fin cfg0.N, (cfg0.win 3).flush t = true ∧ i ∈ ((cfg0.win 3).blk t).view.set := by
  have hi0 : (i 0).val < 64 := (i 0).isLt
  have hi1 : (i 1).val < 400 := (i 1).isLt
  have hi2 : (i 2).val < 1024 := (i 2).isLt
  have hN : cfg0.N = 64 := N_0
  have hlt : (i 0).val < cfg0.N := by rw [hN]; exact hi0
  obtain ⟨-, -, -, -, -, -, -, e0, e1, e2, -⟩ := idx_facts ⟨(i 0).val, hlt⟩
  have e0' : win0_3.index ⟨(i 0).val, hlt⟩ (0 : Fin 3) = (i 0).val := e0
  refine ⟨⟨(i 0).val, hlt⟩, flush0_3 _, ?_⟩
  rw [mem_blk3]
  intro a
  match a with
  | ⟨0, _⟩ => show win0_3.index ⟨(i 0).val, hlt⟩ (0 : Fin 3) * 1 ≤ (i 0).val ∧ (i 0).val < win0_3.index ⟨(i 0).val, hlt⟩ (0 : Fin 3) * 1 + 1; rw [e0']; omega
  | ⟨1, _⟩ => show win0_3.index ⟨(i 0).val, hlt⟩ (1 : Fin 3) * 400 ≤ (i 1).val ∧ (i 1).val < win0_3.index ⟨(i 0).val, hlt⟩ (1 : Fin 3) * 400 + 400; rw [e1]; omega
  | ⟨2, _⟩ => show win0_3.index ⟨(i 0).val, hlt⟩ (2 : Fin 3) * 1024 ≤ (i 2).val ∧ (i 2).val < win0_3.index ⟨(i 0).val, hlt⟩ (2 : Fin 3) * 1024 + 1024; rw [e2]; omega

theorem cover4 (i : S64x1x100.Idx) : ∃ t : Fin cfg0.N, (cfg0.win 4).flush t = true ∧ i ∈ ((cfg0.win 4).blk t).view.set := by
  have hi0 : (i 0).val < 64 := (i 0).isLt
  have hi1 : (i 1).val < 1 := (i 1).isLt
  have hi2 : (i 2).val < 100 := (i 2).isLt
  have hN : cfg0.N = 64 := N_0
  have hlt : (i 0).val < cfg0.N := by rw [hN]; exact hi0
  obtain ⟨-, -, -, -, -, -, -, -, -, -, e0, e1, e2⟩ := idx_facts ⟨(i 0).val, hlt⟩
  have e0' : win0_4.index ⟨(i 0).val, hlt⟩ (0 : Fin 3) = (i 0).val := e0
  refine ⟨⟨(i 0).val, hlt⟩, flush0_4 _, ?_⟩
  rw [mem_blk4]
  intro a
  match a with
  | ⟨0, _⟩ => show win0_4.index ⟨(i 0).val, hlt⟩ (0 : Fin 3) * 1 ≤ (i 0).val ∧ (i 0).val < win0_4.index ⟨(i 0).val, hlt⟩ (0 : Fin 3) * 1 + 1; rw [e0']; omega
  | ⟨1, _⟩ => show win0_4.index ⟨(i 0).val, hlt⟩ (1 : Fin 3) * 1 ≤ (i 1).val ∧ (i 1).val < win0_4.index ⟨(i 0).val, hlt⟩ (1 : Fin 3) * 1 + 1; rw [e1]; omega
  | ⟨2, _⟩ => show win0_4.index ⟨(i 0).val, hlt⟩ (2 : Fin 3) * 100 ≤ (i 2).val ∧ (i 2).val < win0_4.index ⟨(i 0).val, hlt⟩ (2 : Fin 3) * 100 + 100; rw [e2]; omega

/-- The first output array after the run. -/
theorem final3 (c : Dev nD) :
    (dats m 0 c).arrAt 3 cfg0.N = G3 (V m c main_arg0) (V m c main_v1) (V m c main_v4) :=
  (dats m 0 c).arrAt_eq_of_cover 3 (G3 (V m c main_arg0) (V m c main_v1) (V m c main_v4)) (fun t _ => flushed3_eq m c t) cover3

/-- The second output array after the run. -/
theorem final4 (c : Dev nD) :
    (dats m 0 c).arrAt 4 cfg0.N = G4 (V m c main_arg0) (V m c main_v1) (V m c main_v4) :=
  (dats m 0 c).arrAt_eq_of_cover 4 (G4 (V m c main_arg0) (V m c main_v1) (V m c main_v4)) (fun t _ => flushed4_eq m c t) cover4

end Cert.ProtoDist.KArrays

end
-- ==== Proof.KernelHost.lean ====
/-
  The two arrays the host prepares for the kernel, read at an index as functions of the prototype argument P [100, 4, 1600]:
  the prototypes laid out as 400 rows (a change of float format is the identity), whose row 4·p + k is P's row (p, k); and the
  column of the rows' squared norms, whose entry 4·p + k is Σ_e P(p,k,e)² (the host's sum starts from the word 0, which is 0).
-/
import proofs.«111610_j53102975648266_2_alg».proof.Proof.Gen.KernelIdeal.Frame
import proofs.«111610_j53102975648266_2_alg».proof.Proof.Spec
import proofs.«111610_j53102975648266_2_alg».proof.Proof.LibRowMin
import Idealize.ShloMosaic.Lib.StableHlo.Run
import Idealize.ShloMosaic.Lib.Pipeline.Value
import Idealize.ShloMosaic.Lib.ValueIdx
import Idealize.ShloMosaic.PureOps.Ideal.Laws

noncomputable section

namespace Cert.ProtoDist.KHost

open Idealize.ShloMosaic Idealize.ShloMosaic.TcCoe Idealize.SL.Sem Idealize.ShloMosaic.StableHlo
open Idealize.ShloMosaic.ValueIdx Cert.KernelIdeal Cert.KernelIdeal.Gen Cert.ProtoDist

variable (m : (ℓ : Loc nD τ sig) → Buf (Elt Ideal) ℓ)

/-- The three argument arrays as launched, as arrays of extended reals: embeddings, prototypes, class weights. -/
abbrev argE (c : Dev nD) : S64x1024x1600.Idx → EReal := m ((c : Thread nD τ).loc main_arg0)
abbrev argP (c : Dev nD) : S100x4x1600.Idx → EReal := m ((c : Thread nD τ).loc main_arg1)
abbrev argW (c : Dev nD) : S2x100.Idx → EReal := m ((c : Thread nD τ).loc main_arg2)

/-- The prototypes as 400 rows, as the kernel finds them. -/
theorem V_v1 (c : Dev nD) :
    (V m c main_v1 : S400x1600.Idx → EReal)
      = truncf (F := Ideal) .bf16 (shapeCast S400x1600 (argP m c) Facts₀.shapeCasts_S100x4x1600_S400x1600)
          Facts₀.bitsLt_bf16_f32 := by
  show StableHlo.after hostOps0 (fun b => m (c, b)) (Proc.devRef .tc main_v1) = _
  after_results
  rfl

/-- The column of squared norms, as the kernel finds it. -/
theorem V_v4 (c : Dev nD) :
    (V m c main_v4 : S400x1.Idx → EReal)
      = broadcastInDim S400x1 ![0] Facts₀.bcast_S400_S400x1_0
          (Host.reduceAdd (F := Ideal) (φ := .f32)
            (mulf (F := Ideal) (φ := .f32) (shapeCast S400x1600 (argP m c) Facts₀.shapeCasts_S100x4x1600_S400x1600)
              (shapeCast S400x1600 (argP m c) Facts₀.shapeCasts_S100x4x1600_S400x1600))
            (constant (F := Ideal) S_ .f32 0x00000000#32) Facts₀.reducesTo_S400x1600_S400_d1 Facts₀.h_S_) := by
  show StableHlo.after hostOps0 (fun b => m (c, b)) (Proc.devRef .tc main_v4) = _
  after_results
  rfl

/-- Row 4·p + k of the 400-row layout, at e, is P(p, k, e). -/
theorem flat_apply (X : S100x4x1600.Idx → EReal) (p : Fin 100) (k : Fin 4) (e : Fin 1600) :
    shapeCast S400x1600 X Facts₀.shapeCasts_S100x4x1600_S400x1600 (ix2 (pkOf p k) e) = X (ix3 p k e) :=
  shapeCast_apply X _ _ _ (by
    rw [Shape.rowMajor_val_three, Shape.rowMajor_val_two]
    show (p.val * 4 + k.val) * 1600 + e.val = (p.val * 4 + k.val) * 1600 + e.val
    rfl)

theorem V_v1_apply (c : Dev nD) (p : Fin 100) (k : Fin 4) (e : Fin 1600) :
    (V m c main_v1 : S400x1600.Idx → EReal) (ix2 (pkOf p k) e) = argP m c (ix3 p k e) := by
  rw [V_v1]
  exact flat_apply _ p k e

theorem V_v4_apply (c : Dev nD) (p : Fin 100) (k : Fin 4) :
    (V m c main_v4 : S400x1.Idx → EReal) (ix2 (pkOf p k) (0 : Fin 1)) = sqP (argP m c) p k := by
  have hR : S400x1600.Reduces [(1 : Fin 2)] S400 := by decide
  rw [V_v4, Cert.LibColumn.bcastInDim_a_a1_apply]
  simp only [Host.reduceAdd, Ideal.hostReduceAdd_def]
  rw [Cert.LibRowMin.hostRowSum_apply _ _ Facts₀.reducesTo_S400x1600_S400_d1 hR]
  unfold sqP
  show Ideal.ofBits .f32 0x00000000#32 + _ = _
  rw [Ideal.ofBits_zero_f32, zero_add]
  refine Finset.sum_congr rfl fun e _ => ?_
  show shapeCast S400x1600 (argP m c) _ (ix2 (pkOf p k) e) * shapeCast S400x1600 (argP m c) _ (ix2 (pkOf p k) e) = _
  rw [flat_apply]

end Cert.ProtoDist.KHost

end
-- ==== Proof.KernelValue.lean ====
/-
  The kernel program's three results as the functions of Spec.lean of its argument arrays.

  After the grid, the host views the first output [64, 400, 1024] as [64, 100, 4, 1024] (row 4·p + k of a batch is (p, k)) and
  swaps the last two axes: entry (b, p, s, k) is the kernel's distance at (b, 4·p + k, s), and with the prototypes' rows and
  squared norms as the host prepared them that is dist E P b p s k. It drops the unit axis of the second output [64, 1, 100]:
  entry (b, p) is the sum over k of the minimum over s of those distances, protoDist E P b p. The last result is the
  contraction of that array with the transposed class weights.
-/
import proofs.«111610_j53102975648266_2_alg».proof.Proof.Gen.KernelIdeal.Frame
import proofs.«111610_j53102975648266_2_alg».proof.Proof.KernelArrays
import proofs.«111610_j53102975648266_2_alg».proof.Proof.KernelHost
import Idealize.ShloMosaic.Lib.StableHlo.Run
import Idealize.ShloMosaic.Lib.Pipeline.Value

set_option maxRecDepth 16384

noncomputable section

namespace Cert.ProtoDist.KValue

open Idealize.ShloMosaic Idealize.ShloMosaic.TcCoe Idealize.SL.Sem Idealize.ShloMosaic.StableHlo
open Idealize.ShloMosaic.ValueIdx Cert.KernelIdeal Cert.KernelIdeal.Gen
open Cert.ProtoDist Cert.ProtoDist.KHost Cert.ProtoDist.KArrays

section Functions

variable (A0 : S64x1024x1600.Idx → EReal) (A1 : S400x1600.Idx → EReal) (A2 : S400x1.Idx → EReal)
  (E : S64x1024x1600.Idx → EReal) (P : S100x4x1600.Idx → EReal)
  (h0 : A0 = E) (h1 : ∀ (p : Fin 100) (k : Fin 4) (e : Fin 1600), A1 (ix2 (pkOf p k) e) = P (ix3 p k e))
  (h2 : ∀ (p : Fin 100) (k : Fin 4), A2 (ix2 (pkOf p k) (0 : Fin 1)) = sqP P p k)

include h0 h1 h2

/-- With A1 the prototypes as 400 rows and A2 their squared norms, the kernel's distance at row 4·p + k is dist. -/
theorem g3_of (b : Fin 64) (p : Fin 100) (s : Fin 1024) (k : Fin 4) : g3 A0 A1 A2 b (pkOf p k) s = dist E P b p s k := by
  subst h0
  unfold g3 dist sqE dotPE
  simp only [h1, h2]

/-- And its summed minima are protoDist. -/
theorem g4_of (b : Fin 64) (p : Fin 100) : g4 A0 A1 A2 b p = protoDist E P b p := by
  unfold g4 protoDist minDist
  simp only [g3_of A0 A1 A2 E P h0 h1 h2]

end Functions

variable (m : (ℓ : Loc nD τ sig) → Buf (Elt Ideal) ℓ) (ρ : Dev nD → PrngReg)

/-- The last result from the summed minima and the class weights: their contraction against the transposed weights. -/
def classOut (pd : S64x100.Idx → EReal) (W : S2x100.Idx → EReal) : S64x2.Idx → EReal :=
  Host.dotGeneral (F := Ideal) (φ₁ := .f32) (φ₂ := .f32) dot_S64x100_S100x2_S64x2_1_0_0_1_n_n none pd
    (transpose S100x2 [1, 0] W Facts₀.transposes_S2x100_S100x2_1_0)

/-- What the region leaves in the two output arrays, as the host lines after it find them. -/
theorem arr3 (c : Dev nD) :
    Pipeline.withArrays spec0 c (V0 m c) (fun w => (dats m 0 c).arrAt w cfg0.N) (Proc.devRef .tc main_v5_0)
      = G3 (V m c main_arg0) (V m c main_v1) (V m c main_v4) :=
  (Pipeline.withArrays_arr spec0 launch0.win.arr_inj c (V0 m c) (fun w => (dats m 0 c).arrAt w cfg0.N) 3).trans (final3 m c)

theorem arr4 (c : Dev nD) :
    Pipeline.withArrays spec0 c (V0 m c) (fun w => (dats m 0 c).arrAt w cfg0.N) (Proc.devRef .tc main_v5_1)
      = G4 (V m c main_arg0) (V m c main_v1) (V m c main_v4) :=
  (Pipeline.withArrays_arr spec0 launch0.win.arr_inj c (V0 m c) (fun w => (dats m 0 c).arrAt w cfg0.N) 4).trans (final4 m c)

theorem arrW (c : Dev nD) :
    Pipeline.withArrays spec0 c (V0 m c) (fun w => (dats m 0 c).arrAt w cfg0.N) (Proc.devRef .tc main_arg2) = argW m c :=
  (Pipeline.withArrays_of_ne spec0 c (V0 m c) (fun w => (dats m 0 c).arrAt w cfg0.N) main_arg2
    (by exact (by decide : ∀ w, Pipeline.arrRef spec0 w ≠ main_arg2))).trans (V_main_arg2 m c)

/-- The second output with its unit axis dropped is the array of summed minima. -/
theorem pd_eq (c : Dev nD) :
    shapeCast S64x100 (G4 (V m c main_arg0) (V m c main_v1) (V m c main_v4)) Facts₀.shapeCasts_S64x1x100_S64x100
      = protoArr (argE m c) (argP m c) := by
  funext i
  obtain ⟨b, p, rfl⟩ : ∃ (b : Fin 64) (p : Fin 100), i = ix2 b p := ⟨i 0, i 1, eq_ix2 i⟩
  rw [shapeCast_apply _ _ (ix2 b p) (ix3 b (0 : Fin 1) p) (by
    rw [Shape.rowMajor_val_three, Shape.rowMajor_val_two]
    show (b.val * 1 + 0) * 100 + p.val = b.val * 100 + p.val
    omega)]
  rw [G4_apply]
  exact g4_of _ _ _ (argE m c) (argP m c) (V_main_arg0 m c) (V_v1_apply m c) (V_v4_apply m c) b p

/-- The first output viewed as [64, 100, 4, 1024] with its last two axes swapped is the array of distances. -/
theorem dist_eq (c : Dev nD) :
    transpose S64x100x1024x4 [0, 1, 3, 2]
        (shapeCast S64x100x4x1024 (G3 (V m c main_arg0) (V m c main_v1) (V m c main_v4)) Facts₀.shapeCasts_S64x400x1024_S64x100x4x1024)
        Facts₀.transposes_S64x100x4x1024_S64x100x1024x4_0_1_3_2
      = distArr (argE m c) (argP m c) := by
  funext i
  obtain ⟨b, p, s, k, rfl⟩ : ∃ (b : Fin 64) (p : Fin 100) (s : Fin 1024) (k : Fin 4), i = ix4 b p s k :=
    ⟨i 0, i 1, i 2, i 3, eq_ix4 i⟩
  rw [transpose_apply [0, 1, 3, 2] _ _ (ix4 b p s k) (ix4 b p k s) (fun a => match a with
    | ⟨0, _⟩ => rfl
    | ⟨1, _⟩ => rfl
    | ⟨2, _⟩ => rfl
    | ⟨3, _⟩ => rfl)]
  rw [shapeCast_apply _ _ (ix4 b p k s) (ix3 b (pkOf p k) s) (by
    rw [Shape.rowMajor_val_three, Shape.rowMajor_val_four]
    show (b.val * 400 + (p.val * 4 + k.val)) * 1024 + s.val = ((b.val * 100 + p.val) * 4 + k.val) * 1024 + s.val
    omega)]
  rw [G3_apply]
  exact g3_of _ _ _ (argE m c) (argP m c) (V_main_arg0 m c) (V_v1_apply m c) (V_v4_apply m c) b p s k

/-- The host lines after the region, read at the three results. -/
theorem tail_v8 (c : Dev nD) :
    Pipeline.afterTail₀ cfgs (dats m) 0 (V0 m) [hostOps1] c main_v8 = protoArr (argE m c) (argP m c) := by
  unfold Pipeline.afterTail₀
  show StableHlo.after hostOps1 _ (Proc.devRef .tc main_v8) = _
  after_results
  exact (congrArg (fun X : S64x1x100.Idx → EReal => shapeCast S64x100 X Facts₀.shapeCasts_S64x1x100_S64x100) (arr4 m c)).trans
    (pd_eq m c)

theorem tail_v7 (c : Dev nD) :
    Pipeline.afterTail₀ cfgs (dats m) 0 (V0 m) [hostOps1] c main_v7 = distArr (argE m c) (argP m c) := by
  unfold Pipeline.afterTail₀
  show StableHlo.after hostOps1 _ (Proc.devRef .tc main_v7) = _
  after_results
  exact (congrArg (fun X : S64x400x1024.Idx → EReal => transpose S64x100x1024x4 [0, 1, 3, 2]
      (shapeCast S64x100x4x1024 X Facts₀.shapeCasts_S64x400x1024_S64x100x4x1024)
      Facts₀.transposes_S64x100x4x1024_S64x100x1024x4_0_1_3_2) (arr3 m c)).trans (dist_eq m c)

theorem tail_v10 (c : Dev nD) :
    Pipeline.afterTail₀ cfgs (dats m) 0 (V0 m) [hostOps1] c main_v10
      = classOut (protoArr (argE m c) (argP m c)) (argW m c) := by
  unfold Pipeline.afterTail₀
  show StableHlo.after hostOps1 _ (Proc.devRef .tc main_v10) = _
  after_results
  unfold classOut
  exact congr
    (congrArg (fun X : S64x100.Idx → EReal => Host.dotGeneral (F := Ideal) (φ₁ := .f32) (φ₂ := .f32)
        dot_S64x100_S100x2_S64x2_1_0_0_1_n_n none X)
      ((congrArg (fun X : S64x1x100.Idx → EReal => shapeCast S64x100 X Facts₀.shapeCasts_S64x1x100_S64x100) (arr4 m c)).trans
        (pd_eq m c)))
    (congrArg (fun Y : S2x100.Idx → EReal => transpose S100x2 [1, 0] Y Facts₀.transposes_S2x100_S100x2_1_0) (arrW m c))

/-- THE KERNEL PROGRAM'S RUN: every weakly fair execution terminates with the three results at the functions of the argument
    arrays, and the arguments unchanged. -/
theorem run : θ_run defs (onTc (τ := τ) (main (F := Ideal))) ⟨m, fun _ => 0, ρ⟩ fun r => ∀ c : Dev nD,
      r.2.mem ((c : Thread nD τ).loc main_v8) = protoArr (argE m c) (argP m c)
      ∧ r.2.mem ((c : Thread nD τ).loc main_v7) = distArr (argE m c) (argP m c)
      ∧ r.2.mem ((c : Thread nD τ).loc main_v10) = classOut (protoArr (argE m c) (argP m c)) (argW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v8 (Pipeline.mem_restRefs_of main_v8 (by decide) (by decide))).trans (tail_v8 m c),
     ((h c).2 main_v7 (Pipeline.mem_restRefs_of main_v7 (by decide) (by decide))).trans (tail_v7 m c),
     ((h c).2 main_v10 (Pipeline.mem_restRefs_of main_v10 (by decide) (by decide))).trans (tail_v10 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.ProtoDist.KValue

end
-- ==== Proof.RefValue.lean ====
/-
  The reference's three results as the functions of Spec.lean, read one operation at a time.

  The reference forms Σ_e E² over the last axis, Σ_e P² over the last axis, the products Σ_e P(p,k,e)·E(b,s,e) (a contraction,
  then a permutation of the axes to [b, p, s, k]), adds the two squared norms broadcast to that shape, subtracts twice the
  products, takes the maximum with zero and the square root: entry (b, p, s, k) is dist E P b p s k (the host's sums start from
  the word 0, which is 0). Its minimum over the axis s from +∞ is minDist; the absolute value of a minimum of distances is the
  minimum itself, because it is nonnegative; and the sum over k is protoDist. The last result is the contraction of the summed
  minima with the transposed class weights.
-/
import proofs.«111610_j53102975648266_2_alg».proof.Proof.Gen.ReferenceIdeal.Read
import proofs.«111610_j53102975648266_2_alg».proof.Proof.Spec
import Idealize.ShloMosaic.PureOps.Ideal.Laws

noncomputable section

namespace Cert.ProtoDist.Ref

open Idealize.ShloMosaic Idealize.ShloMosaic.ValueIdx
open Cert.ReferenceIdeal Cert.ReferenceIdeal.Gen Cert.ReferenceIdeal.Read Cert.ProtoDist

variable (E : S64x1024x1600.Idx → EReal) (P : S100x4x1600.Idx → EReal)

section Indices
variable (b : Fin 64) (p : Fin 100) (s : Fin 1024) (k : Fin 4) (e : Fin 1600)

theorem idxE : idx_main_v1 (idx_main_v6 (idx_main_v8 (ix4 b p s k))) e = ix3 b s e :=
  funext fun a => Fin.ext (by match a with | ⟨0, _⟩ => rfl | ⟨1, _⟩ => rfl | ⟨2, _⟩ => rfl)
theorem idxP : idx_main_v3 (idx_main_v7 (idx_main_v9 (ix4 b p s k))) e = ix3 p k e :=
  funext fun a => Fin.ext (by match a with | ⟨0, _⟩ => rfl | ⟨1, _⟩ => rfl | ⟨2, _⟩ => rfl)
theorem idxL : lidx_main_v4 (idx_main_v5 (ix4 b p s k)) e = ix3 p k e :=
  funext fun a => Fin.ext (by match a with | ⟨0, _⟩ => rfl | ⟨1, _⟩ => rfl | ⟨2, _⟩ => rfl)
theorem idxR : ridx_main_v4 (idx_main_v5 (ix4 b p s k)) e = ix3 b s e :=
  funext fun a => Fin.ext (by match a with | ⟨0, _⟩ => rfl | ⟨1, _⟩ => rfl | ⟨2, _⟩ => rfl)
theorem idxK : idx_main_v19 (ix2 b p) k = ix3 b p k :=
  funext fun a => Fin.ext (by match a with | ⟨0, _⟩ => rfl | ⟨1, _⟩ => rfl | ⟨2, _⟩ => rfl)

end Indices

/-- The reference's distances at (b, p, s, k). -/
theorem v16_apply (b : Fin 64) (p : Fin 100) (s : Fin 1024) (k : Fin 4) :
    val_main_v16 (F := Ideal) E P (ix4 b p s k) = dist E P b p s k := by
  rw [val_main_v16_apply, val_main_v15_apply, val_main_v13_apply, val_main_v10_apply, val_main_v8_apply, val_main_v6_apply,
    val_main_v1_apply, val_main_v9_apply, val_main_v7_apply, val_main_v3_apply, val_main_v12_apply, val_main_v11_apply,
    val_main_v5_apply, val_main_v4_apply, val_main_v14_apply]
  unfold dist distOf sqE sqP dotPE
  simp only [idxE, idxP, idxL, idxR, val_main_v0_apply, val_main_v2_apply, val_main_cst_apply, val_main_cst_0_apply,
    val_main_cst_1_apply, val_main_cst_2_apply, Ideal.hostUnary_sqrt_def, Ideal.maximumf_def, Ideal.subf_def, Ideal.addf_def,
    Ideal.mulf_def, Ideal.ofBits_def, Ideal.ofBits_zero_f32, zero_add]

/-- The reference's array of distances. -/
theorem v16_eq : val_main_v16 (F := Ideal) E P = distArr E P := by
  funext i
  obtain ⟨b, p, s, k, rfl⟩ : ∃ (b : Fin 64) (p : Fin 100) (s : Fin 1024) (k : Fin 4), i = ix4 b p s k :=
    ⟨i 0, i 1, i 2, i 3, eq_ix4 i⟩
  exact v16_apply E P b p s k

/-- Result index (b, p, k) of the reduction along the third axis, with the dropped coordinate s put back, is (b, p, s, k). -/
theorem lift_s (h : S64x100x1024x4.Reduces [(2 : Fin 4)] S64x100x4) (b : Fin 64) (p : Fin 100) (k : Fin 4) (s : Fin 1024) :
    h.lift (ix3 b p k) s = ix4 b p s k :=
  funext fun c => Fin.ext (by match c with | ⟨0, _⟩ => rfl | ⟨1, _⟩ => rfl | ⟨2, _⟩ => rfl | ⟨3, _⟩ => rfl)

/-- The reference's minimum over the sequence axis at (b, p, k). -/
theorem v17_apply (b : Fin 64) (p : Fin 100) (k : Fin 4) :
    val_main_v17 (F := Ideal) E P (ix3 b p k) = minDist E P b p k := by
  have hR : S64x100x1024x4.Reduces [(2 : Fin 4)] S64x100x4 := by decide
  unfold val_main_v17
  refine (Host.reduce_eq_fold_single (FloatOps.minimumf (F := Ideal) (φ := .f32)) (val_main_v16 (F := Ideal) E P)
    (val_main_cst_3 (F := Ideal)) Facts₀.reducesTo_S64x100x1024x4_S64x100x4_d2 hR Facts₀.h_S_ (ix3 b p k)).trans ?_
  unfold minDist
  show (Finset.univ : Finset (Fin 1024)).fold min (Ideal.ofBits .f32 0x7F800000#32)
      (fun s => val_main_v16 (F := Ideal) E P (hR.lift (ix3 b p k) s)) = _
  exact congrArg (fun f => (Finset.univ : Finset (Fin 1024)).fold min (Ideal.ofBits .f32 0x7F800000#32) f)
    (funext fun (s : Fin 1024) => (congrArg (val_main_v16 (F := Ideal) E P) (lift_s hR b p k s)).trans (v16_apply E P b p s k))

/-- The reference's array of summed minima. -/
theorem v19_eq : val_main_v19 (F := Ideal) E P = protoArr E P := by
  funext i
  obtain ⟨b, p, rfl⟩ : ∃ (b : Fin 64) (p : Fin 100), i = ix2 b p := ⟨i 0, i 1, eq_ix2 i⟩
  rw [val_main_v19_apply]
  show Ideal.ofBits .f32 0x00000000#32 + ∑ k : Fin 4, val_main_v18 (F := Ideal) E P (idx_main_v19 (ix2 b p) k) = protoDist E P b p
  rw [Ideal.ofBits_zero_f32, zero_add]
  unfold protoDist
  refine Finset.sum_congr rfl fun k _ => ?_
  rw [idxK, val_main_v18_apply, v17_apply]
  exact abs_of_nonneg (minDist_nonneg E P b p k)

/-- The last result from the summed minima and the class weights: their contraction against the transposed weights. -/
def classOut (pd : S64x100.Idx → EReal) (W : S2x100.Idx → EReal) : S64x2.Idx → EReal :=
  Host.dotGeneral (F := Ideal) (φ₁ := .f32) (φ₂ := .f32) dot_S64x100_S100x2_S64x2_1_0_0_1_n_n none pd
    (transpose S100x2 [1, 0] W Facts₀.transposes_S2x100_S100x2_1_0)

/-- The reference's last result. -/
theorem v21_eq (W : S2x100.Idx → EReal) : val_main_v21 (F := Ideal) E P W = classOut (protoArr E P) W := by
  unfold val_main_v21 val_main_v20 classOut
  rw [v19_eq]

end Cert.ProtoDist.Ref

end
-- ==== Proof.lean ====
/-
  Distances between embedding rows and prototype rows, their minima over the sequence and the sums of the minima over each
  prototype's rows, followed by a linear map: the kernel program and the reference compute the same three arrays over the
  extended reals.

  Both programs expand ‖x − p‖² = ‖x‖² + ‖p‖² − 2 x·p, clamp at zero and take the square root. They differ in three ways, none of
  which changes a value over the extended reals:
    * the kernel adds the two squared norms in the other order (addition commutes);
    * the kernel lays the 100 × 4 prototype rows out as 400 rows, computes one batch per grid point, and the host regroups the
      rows and swaps the last two axes afterwards (a re-indexing: row 4·p + k is row (p, k));
    * the reference takes the absolute value of each minimum before summing, the kernel does not: a distance is a square root,
      hence nonnegative, so is a minimum of distances taken from +∞, and the absolute value of a nonnegative number is itself.
  The sums and inner products are the same finite sums on both sides (a lane sum, a host sum and both matrix products are plain
  sums over the extended reals; a change of float format is the identity), and the final contraction with the transposed class
  weights is the same operation applied to equal arrays. No step uses the finiteness of the inputs.

  The kernel's run is read off the generated frame run (KernelValue.lean), the reference's off its generated run one operation
  at a time (RefValue.lean); Spec.lean states the common functions.
-/
import proofs.«111610_j53102975648266_2_alg».proof.Defs
import proofs.«111610_j53102975648266_2_alg».proof.Proof.Gen.Kernel
import proofs.«111610_j53102975648266_2_alg».proof.Proof.Gen.Kernel.Skeleton
import proofs.«111610_j53102975648266_2_alg».proof.Proof.Gen.Kernel.Launch
import proofs.«111610_j53102975648266_2_alg».proof.Proof.Gen.Kernel.Points
import proofs.«111610_j53102975648266_2_alg».proof.Proof.Gen.Kernel.Frame
import proofs.«111610_j53102975648266_2_alg».proof.Proof.Gen.KernelIdeal
import proofs.«111610_j53102975648266_2_alg».proof.Proof.Gen.KernelIdeal.Skeleton
import proofs.«111610_j53102975648266_2_alg».proof.Proof.Gen.KernelIdeal.Launch
import proofs.«111610_j53102975648266_2_alg».proof.Proof.Gen.KernelIdeal.Points
import proofs.«111610_j53102975648266_2_alg».proof.Proof.Gen.KernelIdeal.Frame
import proofs.«111610_j53102975648266_2_alg».proof.Proof.Gen.ReferenceIdeal
import proofs.«111610_j53102975648266_2_alg».proof.Proof.Gen.ReferenceIdeal.Run
import proofs.«111610_j53102975648266_2_alg».proof.Proof.Gen.ReferenceIdeal.Read
import proofs.«111610_j53102975648266_2_alg».proof.Proof.Gen.Pre_finite_inputs
import proofs.«111610_j53102975648266_2_alg».proof.Proof.KernelValue
import proofs.«111610_j53102975648266_2_alg».proof.Proof.RefValue
import Idealize.ShloMosaic.Adequacy
import Idealize.ShloMosaic.Init

noncomputable section

namespace Cert.Proof

open Idealize.ShloMosaic Idealize.ShloMosaic.TcCoe Idealize.SL.Sem
open Cert.ProtoDist

/-- The two programs' last operation is one contraction: the same dimension numbers and the same transpose of the weights. -/
theorem classOut_eq (pd : Cert.KernelIdeal.S64x100.Idx → EReal) (W : Cert.KernelIdeal.S2x100.Idx → EReal) :
    KValue.classOut pd W = Ref.classOut pd W := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Over the extended reals both programs end with the array of summed least distances, the array of all distances and the
    contraction of the first with the transposed class weights, as functions of arguments that agree. -/
theorem algebraic : Cert.algebraic_KernelIdeal_ReferenceIdeal := by
  intro m ρ m' ρ' _ hagree
  refine ⟨fun c => protoArr (KHost.argE m c) (KHost.argP m c), fun c => distArr (KHost.argE m c) (KHost.argP m c),
    fun c => Ref.classOut (protoArr (KHost.argE m c) (KHost.argP m c)) (KHost.argW m c), ?_, ?_⟩
  · exact (θ_run Cert.KernelIdeal.defs _ _).mono
      (fun _ h c => ⟨(h c).1, (h c).2.1, (h c).2.2.1.trans (classOut_eq _ _), (h c).2.2.2⟩) (KValue.run m ρ)
  · refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    · rw [(hagree c).1, (hagree c).2.1]
      exact (Cert.ReferenceIdeal.Read.val_main_v19_eq _ _).trans (Ref.v19_eq _ _)
    · rw [(hagree c).1, (hagree c).2.1]
      exact (Cert.ReferenceIdeal.Read.val_main_v16_eq _ _).trans (Ref.v16_eq _ _)
    · rw [(hagree c).1, (hagree c).2.1, (hagree c).2.2]
      exact (Cert.ReferenceIdeal.Read.val_main_v21_eq _ _ _).trans (Ref.v21_eq _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
